-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S128x128 .f32) (main_arg4 : IVec S640000 32) (main_arg5 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 30
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S100000, .f32⟩
  | .hbm, ⟨23, _⟩ => ⟨S640000x1, .i32⟩
  | .hbm, ⟨24, _⟩ => ⟨S100000, .f32⟩
  | .hbm, ⟨25, _⟩ => ⟨S100000x1, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S100000, .f32⟩
  | .hbm, ⟨23, _⟩ => ⟨S640000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One GraphSAGE layer with mean aggregation over 100000 nodes and 128 features, entry by entry.

  From the neighbour sums `agg` (row p: the sum of the embeddings of the sources of the edges into node p) and the
  in-degrees `deg`, row p of the result is

      (agg p / max (deg p) 1) · W_lᵀ + b_l + emb p · W_rᵀ,

  that is, at column e,

      Σ_k (agg(p, k) / max(deg p, 1)) · W_l(e, k)  +  b_l(e)  +  Σ_k emb(p, k) · W_r(e, k).

  Everything is an extended real; the quotient is the ideal instance's division, and `one` is what the float word of
  1.0 denotes. The two sums, the bias and the order in which they are added are the same in both programs, so no law of
  arithmetic is needed to join them: only the reading of each layout operation at an index.
-/
import Idealize.ShloMosaic.PureOps.Ideal
import Idealize.ShloMosaic.Lib.ValueIdx

noncomputable section

namespace Cert.Sage

open Idealize.ShloMosaic Idealize.ShloMosaic.ValueIdx

/-- What the f32 word of 1.0 denotes at the ideal values. -/
abbrev one : EReal := Ideal.ofBits .f32 0x3F800000#32

/-- Row `p`, column `e` of the layer: the mean of the neighbours' embeddings through `W_l`, plus the bias, plus the
    node's own embedding through `W_r`. -/
def entry (agg : (⟨2, ![100000, 128]⟩ : Shape).Idx → EReal) (deg : (⟨1, ![100000]⟩ : Shape).Idx → EReal)
    (emb : (⟨2, ![100000, 128]⟩ : Shape).Idx → EReal) (Wl : (⟨2, ![128, 128]⟩ : Shape).Idx → EReal)
    (bl : (⟨1, ![128]⟩ : Shape).Idx → EReal) (Wr : (⟨2, ![128, 128]⟩ : Shape).Idx → EReal)
    (p : Fin 100000) (e : Fin 128) : EReal :=
  (∑ k : Fin 128, Ideal.div (agg (ix2 p k)) (max (deg (ix1 p)) one) * Wl (ix2 e k)) + bl (ix1 e)
    + ∑ k : Fin 128, emb (ix2 p k) * Wr (ix2 e k)

/-- The whole result array: `entry` at the index's two coordinates. -/
def layer (agg : (⟨2, ![100000, 128]⟩ : Shape).Idx → EReal) (deg : (⟨1, ![100000]⟩ : Shape).Idx → EReal)
    (emb : (⟨2, ![100000, 128]⟩ : Shape).Idx → EReal) (Wl : (⟨2, ![128, 128]⟩ : Shape).Idx → EReal)
    (bl : (⟨1, ![128]⟩ : Shape).Idx → EReal) (Wr : (⟨2, ![128, 128]⟩ : Shape).Idx → EReal) :
    (⟨2, ![100000, 128]⟩ : Shape).Idx → EReal :=
  fun i => entry agg deg emb Wl bl Wr (i 0) (i 1)

/-- At an index written by its coordinates the array reads the entry. -/
theorem layer_ix2 (agg : (⟨2, ![100000, 128]⟩ : Shape).Idx → EReal) (deg : (⟨1, ![100000]⟩ : Shape).Idx → EReal)
    (emb : (⟨2, ![100000, 128]⟩ : Shape).Idx → EReal) (Wl : (⟨2, ![128, 128]⟩ : Shape).Idx → EReal)
    (bl : (⟨1, ![128]⟩ : Shape).Idx → EReal) (Wr : (⟨2, ![128, 128]⟩ : Shape).Idx → EReal)
    (p : Fin 100000) (e : Fin 128) : layer agg deg emb Wl bl Wr (ix2 p e) = entry agg deg emb Wl bl Wr p e := rfl

end Cert.Sage

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Tile.lean ====
/-
  What one grid point computes, entry by entry.

  A point holds a tile of 5000 rows: the rows' neighbour sums `agg` [5000, 128], their in-degrees as a column `deg`
  [5000, 1], their own embeddings `emb` [5000, 128], and — the same at every point — the two weight matrices already
  transposed, `wl`, `wr` [128, 128] (so `wl(k, e) = W_l(e, k)`), and the bias as a row `b` [1, 128]. It divides each
  row of `agg` by the larger of its degree and 1, multiplies by `wl`, adds the bias row to every row, and adds
  `emb · wr`. Read at row p and column e of the tile, with both matrix products as sums over the 128 features:

      Σ_k (agg(p, k) / max(deg(p, 0), 1)) · wl(k, e)  +  b(0, e)  +  Σ_k emb(p, k) · wr(k, e).
-/
import proofs.«111071_j40716289966339_1_alg».proof.Proof.Gen.KernelIdeal.Skeleton
import proofs.«111071_j40716289966339_1_alg».proof.Proof.Spec
import proofs.«111071_j40716289966339_1_alg».proof.Proof.LibPlainMatmul
import proofs.«111071_j40716289966339_1_alg».proof.Proof.LibKeepdims
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The tile's entry (p, e). -/
theorem pay_apply (deg : Vec Ideal S5000x1 .f32) (agg : Vec Ideal S5000x128 .f32) (wl : Vec Ideal S128x128 .f32)
    (b : Vec Ideal S1x128 .f32) (emb : Vec Ideal S5000x128 .f32) (wr : Vec Ideal S128x128 .f32)
    (p : Fin 5000) (e : Fin 128) :
    k0_pay1 (F := Ideal) deg agg wl b emb wr (ix2 p e)
      = (∑ k : Fin 128, Ideal.div (agg (ix2 p k)) (max (deg (ix2 p (0 : Fin 1))) Cert.Sage.one) * wl (ix2 k e))
          + b (ix2 (0 : Fin 1) e) + ∑ k : Fin 128, emb (ix2 p k) * wr (ix2 k e) := by
  have hD : dot_S5000x128_S128x128_S5000x128_1_0_0_1_n_n = DotDims.plain 5000 128 128 := rfl
  unfold k0_pay1
  simp only [shapeCast_self]
  rw [addf_apply, addf_apply, hD]
  refine congrArg₂ (· + ·) (congrArg₂ (· + ·) ?_ ?_) ?_
  · refine (matmul_plain_zero_apply 5000 128 128 none _ wl p e).trans ?_
    refine Finset.sum_congr rfl fun k _ => ?_
    rw [divf_apply, Cert.LibKeepdims.broadcastTo_a1_ab_apply _ _ p k (0 : Fin 1), maximumf_apply, broadcast_apply]
    rfl
  · exact broadcastTo_1b_ab_apply b _ p e
  · exact matmul_plain_zero_apply 5000 128 128 none emb wr p e

end Cert.KernelIdeal.Tile

end
-- ==== Proof.Entry.lean ====
/-
  What the kernel's region finds in the arrays its windows stage.

  Before the one kernel call the host program gathers the source embeddings along the edge list and scatter-adds them
  by destination (the neighbour sums), scatter-adds a one per edge (the in-degrees) and casts that vector to a column,
  transposes the two weight matrices, and casts the bias to a row. The neighbour sums and the degrees are the very
  operations, on the very operands, that the reference program starts with: they are stated here through the
  reference's own stages and never opened.
-/
import proofs.«111071_j40716289966339_1_alg».proof.Proof.Gen.KernelIdeal.Frame
import proofs.«111071_j40716289966339_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- Window 0's array: the neighbour sums, as the reference computes them from the same three arguments. -/
theorem V_agg (c : Dev nD) : (V m c main_v9 : S100000x128.Idx → EReal)
    = Cert.ReferenceIdeal.Read.val_main_v9 (F := Ideal) (m ((c : Thread nD τ).loc main_arg0))
        (m ((c : Thread nD τ).loc main_arg4)) (m ((c : Thread nD τ).loc main_arg5)) := by
  dsimp only [Gen.V, Gen.hostOps0]
  after_results
  rfl

/-- Window 1's array: the in-degrees, as the reference computes them, cast from a vector to a column. -/
theorem V_deg (c : Dev nD) : (V m c main_v14 : S100000x1.Idx → EReal)
    = shapeCast S100000x1 (Cert.ReferenceIdeal.Read.val_main_v13 (F := Ideal) (m ((c : Thread nD τ).loc main_arg5)))
        shapeCasts_S100000_S100000x1 := by
  dsimp only [Gen.V, Gen.hostOps0]
  after_results
  rfl

/-- Window 3's array: `W_l` transposed. -/
theorem V_wl (c : Dev nD) : (V m c main_v15 : S128x128.Idx → EReal)
    = transpose S128x128 [1, 0] (m ((c : Thread nD τ).loc main_arg1)) transposes_S128x128_S128x128_1_0 := by
  dsimp only [Gen.V, Gen.hostOps0]
  after_results

/-- Window 5's array: `W_r` transposed. -/
theorem V_wr (c : Dev nD) : (V m c main_v16 : S128x128.Idx → EReal)
    = transpose S128x128 [1, 0] (m ((c : Thread nD τ).loc main_arg3)) transposes_S128x128_S128x128_1_0 := by
  dsimp only [Gen.V, Gen.hostOps0]
  after_results

/-- Window 4's array: the bias cast from a vector to a row. -/
theorem V_bl (c : Dev nD) : (V m c main_v17 : S1x128.Idx → EReal)
    = shapeCast S1x128 (m ((c : Thread nD τ).loc main_arg2)) shapeCasts_S128_S1x128 := by
  dsimp only [Gen.V, Gen.hostOps0]
  after_results
  rfl

end Cert.KernelIdeal.Entry

end
-- ==== Proof.Geometry.lean ====
/-
  Where each window's block sits in its array.

  The grid has 20 points. At point t the three row-tiled inputs (windows 0, 1, 2) and the output (window 6) are at block
  (t, 0) — rows 5000·t … 5000·t + 4999 —, and the two weight matrices and the bias row (windows 3, 4, 5) at block
  (0, 0), which is the whole array. So an array read through the block at point t, at the tile's entry (p, k), is the
  array at (5000·t + p, k); through a whole-array block it is the array at the same index. The arrays' contents are
  arbitrary here: only the windows' index maps matter. The 20 output blocks tile the 100000 rows: row r lies in block
  r / 5000.
-/
import proofs.«111071_j40716289966339_1_alg».proof.Proof.Gen.KernelIdeal.Launch
import proofs.«111071_j40716289966339_1_alg».proof.Proof.Gen.KernelIdeal.Points
import Idealize.ShloMosaic.Lib.Pipeline.Value
import Idealize.ShloMosaic.Lib.ValueIdx

noncomputable section

namespace Cert.KernelIdeal.Geometry

open Cert.KernelIdeal Cert.KernelIdeal.Gen Idealize.ShloMosaic Idealize.ShloMosaic.TcCoe Idealize.SL.Sem
  Idealize.ShloMosaic.ValueIdx

/-- The printed index maps over the grid: the three row-tiled inputs and the output are at block (t, 0), the weights and
    the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 5000) : t.val * 5000 + p.val < 100000 := by
  have h1 : t.val < 20 := lt_of_lt_of_eq t.isLt N_0
  have h2 := p.isLt
  omega

/-- Row `p` of the tile at point `t` is row `5000·t + p` of the array. -/
def row (t : Fin cfg0.N) (p : Fin 5000) : Fin 100000 := ⟨t.val * 5000 + p.val, row_lt t p⟩

/-! ## An array read through a window's block at a point -/

theorem read0 (t : Fin cfg0.N) (A : S100000x128.Idx → EReal) (p : Fin 5000) (k : Fin 128) :
    (((cfg0.win 0).blk t).view.read (Elt Ideal) A : S5000x128.Idx → EReal) (ix2 p k) = A (ix2 (row t p) k) := by
  obtain ⟨e0, e1, -⟩ := idx_facts t
  have h : ((cfg0.win 0).blk t).view.emb (ix2 p k) = ix2 (row t p) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  show A (((cfg0.win 0).blk t).view.emb (ix2 p k)) = _
  exact congrArg A h

theorem read1 (t : Fin cfg0.N) (A : S100000x1.Idx → EReal) (p : Fin 5000) :
    (((cfg0.win 1).blk t).view.read (Elt Ideal) A : S5000x1.Idx → EReal) (ix2 p (0 : Fin 1))
      = A (ix2 (row t p) (0 : Fin 1)) := by
  obtain ⟨-, -, e0, e1, -⟩ := idx_facts t
  have h : ((cfg0.win 1).blk t).view.emb (ix2 p (0 : Fin 1)) = ix2 (row t p) (0 : Fin 1) := by
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  show A (((cfg0.win 1).blk t).view.emb (ix2 p (0 : Fin 1))) = _
  exact congrArg A h

theorem read2 (t : Fin cfg0.N) (A : S100000x128.Idx → EReal) (p : Fin 5000) (k : Fin 128) :
    (((cfg0.win 2).blk t).view.read (Elt Ideal) A : S5000x128.Idx → EReal) (ix2 p k) = A (ix2 (row t p) k) := by
  obtain ⟨-, -, -, -, e0, e1, -⟩ := idx_facts t
  have h : ((cfg0.win 2).blk t).view.emb (ix2 p k) = ix2 (row t p) k := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * k.val = k.val; omega
  show A (((cfg0.win 2).blk t).view.emb (ix2 p k)) = _
  exact congrArg A h

theorem read3 (t : Fin cfg0.N) (A : S128x128.Idx → EReal) (k : Fin 128) (e : Fin 128) :
    (((cfg0.win 3).blk t).view.read (Elt Ideal) A : S128x128.Idx → EReal) (ix2 k e) = A (ix2 k e) := by
  obtain ⟨-, -, -, -, -, -, e0, e1, -⟩ := idx_facts t
  have h : ((cfg0.win 3).blk t).view.emb (ix2 k e) = ix2 k e := by
    funext a; apply Fin.ext
    match a with
    | ⟨0, _⟩ => show win0_3.index t (0 : Fin 2) * 128 + 1 * k.val = k.val; omega
    | ⟨1, _⟩ => show win0_3.index t (1 : Fin 2) * 128 + 1 * e.val = e.val; omega
  show A (((cfg0.win 3).blk t).view.emb (ix2 k e)) = _
  exact congrArg A h

theorem read4 (t : Fin cfg0.N) (A : S1x128.Idx → EReal) (e : Fin 128) :
    (((cfg0.win 4).blk t).view.read (Elt Ideal) A : S1x128.Idx → EReal) (ix2 (0 : Fin 1) e) = A (ix2 (0 : Fin 1) e) := by
  obtain ⟨-, -, -, -, -, -, -, -, e0, e1, -⟩ := idx_facts t
  have h : ((cfg0.win 4).blk t).view.emb (ix2 (0 : Fin 1) e) = ix2 (0 : Fin 1) e := by
    funext a; apply Fin.ext
    match a with
    | ⟨0, _⟩ => show win0_4.index t (0 : Fin 2) * 1 + 1 * 0 = 0; omega
    | ⟨1, _⟩ => show win0_4.index t (1 : Fin 2) * 128 + 1 * e.val = e.val; omega
  show A (((cfg0.win 4).blk t).view.emb (ix2 (0 : Fin 1) e)) = _
  exact congrArg A h

theorem read5 (t : Fin cfg0.N) (A : S128x128.Idx → EReal) (k : Fin 128) (e : Fin 128) :
    (((cfg0.win 5).blk t).view.read (Elt Ideal) A : S128x128.Idx → EReal) (ix2 k e) = A (ix2 k e) := by
  obtain ⟨-, -, -, -, -, -, -, -, -, -, e0, e1, -⟩ := idx_facts t
  have h : ((cfg0.win 5).blk t).view.emb (ix2 k e) = ix2 k e := by
    funext a; apply Fin.ext
    match a with
    | ⟨0, _⟩ => show win0_5.index t (0 : Fin 2) * 128 + 1 * k.val = k.val; omega
    | ⟨1, _⟩ => show win0_5.index t (1 : Fin 2) * 128 + 1 * e.val = e.val; omega
  show A (((cfg0.win 5).blk t).view.emb (ix2 k e)) = _
  exact congrArg A h

theorem read6 (t : Fin cfg0.N) (A : S100000x128.Idx → EReal) (p : Fin 5000) (e : Fin 128) :
    (((cfg0.win 6).blk t).view.read (Elt Ideal) A : S5000x128.Idx → EReal) (ix2 p e) = A (ix2 (row t p) e) := by
  obtain ⟨-, -, -, -, -, -, -, -, -, -, -, -, e0, e1⟩ := idx_facts t
  have h : ((cfg0.win 6).blk t).view.emb (ix2 p e) = ix2 (row t p) e := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * e.val = e.val; omega
  show A (((cfg0.win 6).blk t).view.emb (ix2 p e)) = _
  exact congrArg A h

/-- The output's block is never clipped: what is written back is the staging buffer's contents as they are. -/
theorem cut6 (t : Fin cfg0.N) (X : S5000x128.Idx → EReal) : (cfg0.win 6).cut (grid0.coords t) X = X := rfl

/-! ## The output's blocks tile the array -/

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18).slice (win0_6.rect t)).set ↔ _
  rw [View.set_slice_whole, Rect.mem_set_unit]
  exact Iff.rfl

/-- Every index of the array is in some point's block: row r is in block r / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, -, -, -, -, -, -, -, -, e0, e1⟩ := idx_facts ⟨(i 0).val / 5000, hq⟩
  refine ⟨⟨(i 0).val / 5000, hq⟩, flush0_6 _, ?_⟩
  rw [mem_blk]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e1]; omega

end Cert.KernelIdeal.Geometry

end
-- ==== Proof.Blocks.lean ====
/-
  From the tiles to the whole array.

  Point t of the grid stages rows 5000·t … 5000·t + 4999 of the neighbour sums, of the degree column and of the
  embeddings, all of the two transposed weight matrices and of the bias row, and writes back the same rows of the
  result (`Geometry.lean`). So entry (p, e) of the tile at point t (`Tile.lean`) is entry (5000·t + p, e) of the layer
  of `Spec.lean`: each operand's row 5000·t + p stands in the tile's row p, the degree column read at (q, 0) is the
  degree vector at q, the transposed weights read at (k, e) are the weights at (e, k), and the bias row read at (0, e)
  is the bias at e. The 20 blocks tile the 100000 rows, so the array after the run is the layer everywhere.
-/
import proofs.«111071_j40716289966339_1_alg».proof.Proof.Gen.KernelIdeal.Value
import proofs.«111071_j40716289966339_1_alg».proof.Proof.Spec
import proofs.«111071_j40716289966339_1_alg».proof.Proof.Tile
import proofs.«111071_j40716289966339_1_alg».proof.Proof.Entry
import proofs.«111071_j40716289966339_1_alg».proof.Proof.Geometry
import proofs.«111071_j40716289966339_1_alg».proof.Proof.LibKeepdims
import Idealize.ShloMosaic.Lib.Pipeline.Value
import Idealize.ShloMosaic.Lib.ValueLayout

noncomputable section

namespace Cert.KernelIdeal.Blocks

open Cert.KernelIdeal Cert.KernelIdeal.Gen Cert.KernelIdeal.Geometry Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The neighbour sums of the launch arguments on core `c`. -/
abbrev aggOf (c : Dev nD) : S100000x128.Idx → EReal :=
  Cert.ReferenceIdeal.Read.val_main_v9 (F := Ideal) (m ((c : Thread nD τ).loc main_arg0))
    (m ((c : Thread nD τ).loc main_arg4)) (m ((c : Thread nD τ).loc main_arg5))

/-- The in-degrees of the launch arguments on core `c`. -/
abbrev degOf (c : Dev nD) : S100000.Idx → EReal :=
  Cert.ReferenceIdeal.Read.val_main_v13 (F := Ideal) (m ((c : Thread nD τ).loc main_arg5))

/-- The result array: the layer of the launch arguments. -/
abbrev result (c : Dev nD) : S100000x128.Idx → EReal :=
  Cert.Sage.layer (aggOf m c) (degOf m c) (m ((c : Thread nD τ).loc main_arg0)) (m ((c : Thread nD τ).loc main_arg1))
    (m ((c : Thread nD τ).loc main_arg2)) (m ((c : Thread nD τ).loc main_arg3))

/-! ## Each input window's block: the staged array read through the block -/

theorem iblk0 (c : Dev nD) (t : Fin cfg0.N) :
    iblk m c 0 t = ((cfg0.win 0).blk t).view.read (Elt Ideal) (aggOf m c) := by
  unfold iblk
  exact congrArg (((cfg0.win 0).blk t).view.read (Elt Ideal)) (Entry.V_agg m c)

theorem iblk1 (c : Dev nD) (t : Fin cfg0.N) :
    iblk m c 1 t = ((cfg0.win 1).blk t).view.read (Elt Ideal)
      (shapeCast S100000x1 (degOf m c) shapeCasts_S100000_S100000x1) := by
  unfold iblk
  exact congrArg (((cfg0.win 1).blk t).view.read (Elt Ideal)) (Entry.V_deg m c)

theorem iblk2 (c : Dev nD) (t : Fin cfg0.N) :
    iblk m c 2 t = ((cfg0.win 2).blk t).view.read (Elt Ideal) (m ((c : Thread nD τ).loc main_arg0)) := by
  unfold iblk
  exact congrArg (((cfg0.win 2).blk t).view.read (Elt Ideal)) (V_main_arg0 m c)

theorem iblk3 (c : Dev nD) (t : Fin cfg0.N) :
    iblk m c 3 t = ((cfg0.win 3).blk t).view.read (Elt Ideal)
      (transpose S128x128 [1, 0] (m ((c : Thread nD τ).loc main_arg1)) transposes_S128x128_S128x128_1_0) := by
  unfold iblk
  exact congrArg (((cfg0.win 3).blk t).view.read (Elt Ideal)) (Entry.V_wl m c)

theorem iblk4 (c : Dev nD) (t : Fin cfg0.N) :
    iblk m c 4 t = ((cfg0.win 4).blk t).view.read (Elt Ideal)
      (shapeCast S1x128 (m ((c : Thread nD τ).loc main_arg2)) shapeCasts_S128_S1x128) := by
  unfold iblk
  exact congrArg (((cfg0.win 4).blk t).view.read (Elt Ideal)) (Entry.V_bl m c)

theorem iblk5 (c : Dev nD) (t : Fin cfg0.N) :
    iblk m c 5 t = ((cfg0.win 5).blk t).view.read (Elt Ideal)
      (transpose S128x128 [1, 0] (m ((c : Thread nD τ).loc main_arg3)) transposes_S128x128_S128x128_1_0) := by
  unfold iblk
  exact congrArg (((cfg0.win 5).blk t).view.read (Elt Ideal)) (Entry.V_wr m c)

/-! ## Each block read at an entry of the tile -/

theorem agg_blk (c : Dev nD) (t : Fin cfg0.N) (p : Fin 5000) (k : Fin 128) :
    (iblk m c 0 t : S5000x128.Idx → EReal) (ix2 p k) = aggOf m c (ix2 (row t p) k) :=
  (congrFun (iblk0 m c t) (ix2 p k)).trans (read0 t (aggOf m c) p k)

theorem deg_blk (c : Dev nD) (t : Fin cfg0.N) (p : Fin 5000) :
    (iblk m c 1 t : S5000x1.Idx → EReal) (ix2 p (0 : Fin 1)) = degOf m c (ix1 (row t p)) :=
  ((congrFun (iblk1 m c t) (ix2 p (0 : Fin 1))).trans (read1 t _ p)).trans
    (Cert.LibKeepdims.shapeCast_a_a1_apply (degOf m c) shapeCasts_S100000_S100000x1 (row t p) (0 : Fin 1))

theorem emb_blk (c : Dev nD) (t : Fin cfg0.N) (p : Fin 5000) (k : Fin 128) :
    (iblk m c 2 t : S5000x128.Idx → EReal) (ix2 p k)
      = (m ((c : Thread nD τ).loc main_arg0) : S100000x128.Idx → EReal) (ix2 (row t p) k) :=
  (congrFun (iblk2 m c t) (ix2 p k)).trans (read2 t _ p k)

theorem wl_blk (c : Dev nD) (t : Fin cfg0.N) (k : Fin 128) (e : Fin 128) :
    (iblk m c 3 t : S128x128.Idx → EReal) (ix2 k e)
      = (m ((c : Thread nD τ).loc main_arg1) : S128x128.Idx → EReal) (ix2 e k) :=
  ((congrFun (iblk3 m c t) (ix2 k e)).trans (read3 t _ k e)).trans
    (transpose_ix2_apply (m ((c : Thread nD τ).loc main_arg1) : S128x128.Idx → EReal) transposes_S128x128_S128x128_1_0 k e)

theorem bl_blk (c : Dev nD) (t : Fin cfg0.N) (e : Fin 128) :
    (iblk m c 4 t : S1x128.Idx → EReal) (ix2 (0 : Fin 1) e)
      = (m ((c : Thread nD τ).loc main_arg2) : S128.Idx → EReal) (ix1 e) :=
  ((congrFun (iblk4 m c t) (ix2 (0 : Fin 1) e)).trans (read4 t _ e)).trans
    (shapeCast_a_1a_apply (m ((c : Thread nD τ).loc main_arg2) : S128.Idx → EReal) shapeCasts_S128_S1x128 (0 : Fin 1) e)

theorem wr_blk (c : Dev nD) (t : Fin cfg0.N) (k : Fin 128) (e : Fin 128) :
    (iblk m c 5 t : S128x128.Idx → EReal) (ix2 k e)
      = (m ((c : Thread nD τ).loc main_arg3) : S128x128.Idx → EReal) (ix2 e k) :=
  ((congrFun (iblk5 m c t) (ix2 k e)).trans (read5 t _ k e)).trans
    (transpose_ix2_apply (m ((c : Thread nD τ).loc main_arg3) : S128x128.Idx → EReal) transposes_S128x128_S128x128_1_0 k e)

/-! ## What a point writes back, and the whole array -/

/-- Entry (p, e) of the tile at point `t` is entry (5000·t + p, e) of the layer. -/
theorem tile_entry (c : Dev nD) (t : Fin cfg0.N) (p : Fin 5000) (e : Fin 128) :
    k0_pay1 (F := Ideal) (iblk m c 1 t) (iblk m c 0 t) (iblk m c 3 t) (iblk m c 4 t) (iblk m c 2 t) (iblk m c 5 t) (ix2 p e)
      = Cert.Sage.entry (aggOf m c) (degOf m c) (m ((c : Thread nD τ).loc main_arg0)) (m ((c : Thread nD τ).loc main_arg1))
          (m ((c : Thread nD τ).loc main_arg2)) (m ((c : Thread nD τ).loc main_arg3)) (row t p) e := by
  refine (Tile.pay_apply (iblk m c 1 t) (iblk m c 0 t) (iblk m c 3 t) (iblk m c 4 t) (iblk m c 2 t) (iblk m c 5 t) p e).trans ?_
  unfold Cert.Sage.entry
  refine congrArg₂ (· + ·) (congrArg₂ (· + ·) ?_ (bl_blk m c t e)) ?_
  · refine Finset.sum_congr rfl fun k _ => ?_
    rw [agg_blk m c t p k, deg_blk m c t p, wl_blk m c t k e]
  · refine Finset.sum_congr rfl fun k _ => ?_
    rw [emb_blk m c t p k, wr_blk m c t k e]

/-- What point `t` writes back is block `t` of the layer. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S5000x1) hz, View.ld_unit_zero (S := S5000x128) hz,
    View.ld_unit_zero (S := S128x128) hz, View.ld_unit_zero (S := S1x128) hz]
  rw [cut6]
  refine funext fun (j : S5000x128.Idx) => ?_
  obtain ⟨p, e, rfl⟩ : ∃ (p : Fin 5000) (e : Fin 128), j = ix2 p e := ⟨j 0, j 1, eq_ix2 j⟩
  exact (tile_entry m c t p e).trans (read6 t (result m c) p e).symm

/-- The array after the run is the layer of the launch arguments. -/
theorem final (c : Dev nD) : (dats m 0 c).arrAt 6 cfg0.N = result m c :=
  (dats m 0 c).arrAt_eq_of_cover 6 (result m c) (fun t _ => flushed_eq m c t) cover

/-- The kernel's run: the result array ends at the layer of the launch arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Blocks

end
-- ==== Proof.RefValue.lean ====
/-
  The reference program's result, entry by entry, is the layer of `Spec.lean`.

  The reference divides the whole array of neighbour sums by the degrees — `max(deg, 1)` as a vector [100000], made a
  column [100000, 1], spread over the 128 columns —, multiplies by the transposed `W_l`, adds the bias spread over the
  rows, and adds `emb` times the transposed `W_r`. Each of those steps read at the index (p, e), the two matrix
  products as sums over the 128 features, gives `Sage.entry` term for term. The neighbour sums and the degrees
  themselves (a gather and two scatter-adds over the edge list) are carried as they stand.
-/
import proofs.«111071_j40716289966339_1_alg».proof.Proof.Gen.ReferenceIdeal.Read
import proofs.«111071_j40716289966339_1_alg».proof.Proof.Spec

noncomputable section

namespace Cert.ReferenceIdeal.RefValue

open Cert.ReferenceIdeal Cert.ReferenceIdeal.Read Idealize.ShloMosaic Idealize.ShloMosaic.ValueIdx

/-- The reference's result array is the layer of the neighbour sums and the degrees it computes. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 x5 : (⟨S640000, .i32⟩ : BufTy).Contents (Elt Ideal)) :
    val_main_v26 (F := Ideal) x0 x1 x2 x3 x4 x5
      = Cert.Sage.layer (val_main_v9 (F := Ideal) x0 x4 x5) (val_main_v13 (F := Ideal) x5) x0 x1 x2 x3 := by
  funext i
  obtain ⟨p, e, rfl⟩ : ∃ (p : Fin 100000) (e : Fin 128), i = ix2 p e := ⟨i 0, i 1, eq_ix2 i⟩
  have hl : ∀ k : Fin 128, lidx_main_v20 (ix2 p e) k = ix2 p k := fun k =>
    funext fun a => Fin.ext (by match a with | ⟨0, _⟩ => rfl | ⟨1, _⟩ => rfl)
  have hr : ∀ k : Fin 128, ridx_main_v20 (ix2 p e) k = ix2 k e := fun k =>
    funext fun a => Fin.ext (by match a with | ⟨0, _⟩ => rfl | ⟨1, _⟩ => rfl)
  have hl' : ∀ k : Fin 128, lidx_main_v25 (ix2 p e) k = ix2 p k := fun k =>
    funext fun a => Fin.ext (by match a with | ⟨0, _⟩ => rfl | ⟨1, _⟩ => rfl)
  have hr' : ∀ k : Fin 128, ridx_main_v25 (ix2 p e) k = ix2 k e := fun k =>
    funext fun a => Fin.ext (by match a with | ⟨0, _⟩ => rfl | ⟨1, _⟩ => rfl)
  have ht : ∀ k : Fin 128, idx_main_v19 (ix2 k e) = ix2 e k := fun k =>
    funext fun a => Fin.ext (by match a with | ⟨0, _⟩ => rfl | ⟨1, _⟩ => rfl)
  have ht' : ∀ k : Fin 128, idx_main_v24 (ix2 k e) = ix2 e k := fun k =>
    funext fun a => Fin.ext (by match a with | ⟨0, _⟩ => rfl | ⟨1, _⟩ => rfl)
  have hc : ∀ k : Fin 128, idx_main_v16 (idx_main_v17 (ix2 p k)) = ix1 p := fun k =>
    funext fun a => Fin.ext (by match a with | ⟨0, _⟩ => rfl)
  have hb : idx_main_v21 (idx_main_v22 (ix2 p e)) = ix1 e :=
    funext fun a => Fin.ext (by match a with | ⟨0, _⟩ => rfl)
  rw [Cert.Sage.layer_ix2, val_main_v26_apply, val_main_v23_apply, val_main_v20_apply, val_main_v25_apply,
    val_main_v22_apply, val_main_v21_apply, hb]
  unfold Cert.Sage.entry
  refine congrArg₂ (· + ·) (congrArg₂ (· + ·) ?_ rfl) ?_
  · refine Finset.sum_congr rfl fun k _ => ?_
    rw [hl, hr, val_main_v18_apply, val_main_v17_apply, val_main_v16_apply, hc, val_main_v15_apply,
      val_main_v14_apply, val_main_v19_apply, ht]
    rfl
  · refine Finset.sum_congr rfl fun k _ => ?_
    rw [hl', hr', val_main_v24_apply, ht']

end Cert.ReferenceIdeal.RefValue

end
-- ==== Proof.lean ====
/-
  One GraphSAGE layer with mean aggregation: a fused kernel against plain jnp, equal over the extended reals.

  Both programs begin alike on the host: gather the source embeddings along the edge list, scatter-add them by
  destination (the neighbour sums `agg`), and scatter-add a one per edge (the in-degrees `deg`). The reference then
  computes, over whole arrays,

      (agg / max(deg, 1)[:, None]) @ W_lᵀ + b_l + emb @ W_rᵀ.

  The kernel program transposes the two weight matrices and reshapes `deg` to a column and `b_l` to a row on the host,
  and computes the same expression in one kernel over 20 tiles of 5000 rows. At the ideal values a matrix product is
  the plain sum over the 128 features, so at every index (p, e) both results are

      Σ_k (agg(p, k) / max(deg p, 1)) · W_l(e, k)  +  b_l(e)  +  Σ_k emb(p, k) · W_r(e, k)

  with the same terms added in the same order: the two sides meet without any law of arithmetic, and finiteness of the
  inputs is never used. `Spec.lean` states that function; `RefValue.lean` reads the reference's operations at an
  index; `Tile.lean` reads the kernel's tile at an entry, `Entry.lean` the arrays the kernel's windows stage, and
  `Blocks.lean` puts the 20 tiles together. The idealization rewrote nothing, so `preserves` is trivial; the frames
  are the generated ones, the reference's being its run with the result dropped.
-/
import proofs.«111071_j40716289966339_1_alg».proof.Defs
import proofs.«111071_j40716289966339_1_alg».proof.Proof.Gen.Kernel
import proofs.«111071_j40716289966339_1_alg».proof.Proof.Gen.Kernel.Frame
import proofs.«111071_j40716289966339_1_alg».proof.Proof.Gen.KernelIdeal
import proofs.«111071_j40716289966339_1_alg».proof.Proof.Gen.KernelIdeal.Frame
import proofs.«111071_j40716289966339_1_alg».proof.Proof.Gen.KernelIdeal.Value
import proofs.«111071_j40716289966339_1_alg».proof.Proof.Gen.ReferenceIdeal
import proofs.«111071_j40716289966339_1_alg».proof.Proof.Gen.ReferenceIdeal.Run
import proofs.«111071_j40716289966339_1_alg».proof.Proof.Gen.ReferenceIdeal.Read
import proofs.«111071_j40716289966339_1_alg».proof.Proof.Gen.Pre_finite_inputs
import proofs.«111071_j40716289966339_1_alg».proof.Proof.Blocks
import proofs.«111071_j40716289966339_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the six arguments, the kernel's result array ends at the layer of its arguments and
    the reference's at the layer of its own: one function of equal arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v26_eq, Cert.ReferenceIdeal.RefValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
